-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x64x8192 : Shape := ⟨3, ![4, 64, 8192]⟩
abbrev S8192x8192 : Shape := ⟨2, ![8192, 8192]⟩
abbrev S8192x16 : Shape := ⟨2, ![8192, 16]⟩
abbrev S16x8192 : Shape := ⟨2, ![16, 8192]⟩
abbrev S_ : Shape := ⟨0, ![]⟩

class Facts : Prop where
  bcast_S_S4x64x8192 : S_.BroadcastsInDim S4x64x8192 (![] : Fin 0 → Fin S4x64x8192.rank)
  reducesTo_S4x64x8192_S_d0_1_2 : S4x64x8192.ReducesTo [0, 1, 2] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S8192x16 : S_.BroadcastsInDim S8192x16 (![] : Fin 0 → Fin S8192x16.rank)
  reducesTo_S8192x16_S_d0_1 : S8192x16.ReducesTo [0, 1] S_
  bcast_S_S16x8192 : S_.BroadcastsInDim S16x8192 (![] : Fin 0 → Fin S16x8192.rank)
  reducesTo_S16x8192_S_d0_1 : S16x8192.ReducesTo [0, 1] S_

variable [Facts]

def fn_part1 {F : FTy → Type} [FloatOps F] (main_v13 : IVec S_ 1) (main_v16 : IVec S16x8192 1) : IVec S_ 1 :=
  let main_c_5 : IVec S_ 1 := constantI S_ 1 1#1
  let main_v17 : IVec S_ 1 := (fun x v => Host.reduce IntOp.andi x v reducesTo_S16x8192_S_d0_1 h_S_) main_v16 main_c_5
  let main_v18 : IVec S_ 1 := andi main_v13 main_v17
  main_v18

def fn {F : FTy → Type} [FloatOps F] (main_arg0 : FVec F S4x64x8192 .f32) (main_arg1 : FVec F S8192x8192 .f32) (main_arg2 : FVec F S8192x16 .f32) (main_arg3 : FVec F S16x8192 .f32) : IVec S_ 1 :=
  let main_v0 : FVec F S4x64x8192 .f32 := Host.absf main_arg0
  let main_cst : FVec F S_ .f32 := constant S_ .f32 0x7F800000#32
  let main_v1 : FVec F S4x64x8192 .f32 := broadcastInDim S4x64x8192 ![] bcast_S_S4x64x8192 main_cst
  let main_v2 : IVec S4x64x8192 1 := cmpf .olt main_v0 main_v1
  let main_c : IVec S_ 1 := constantI S_ 1 1#1
  let main_v3 : IVec S_ 1 := (fun x v => Host.reduce IntOp.andi x v reducesTo_S4x64x8192_S_d0_1_2 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S8192x16 .f32 := Host.absf main_arg2
  let main_cst_2 : FVec F S_ .f32 := constant S_ .f32 0x7F800000#32
  let main_v10 : FVec F S8192x16 .f32 := broadcastInDim S8192x16 ![] bcast_S_S8192x16 main_cst_2
  let main_v11 : IVec S8192x16 1 := cmpf .olt main_v9 main_v10
  let main_c_3 : IVec S_ 1 := constantI S_ 1 1#1
  let main_v12 : IVec S_ 1 := (fun x v => Host.reduce IntOp.andi x v reducesTo_S8192x16_S_d0_1 h_S_) main_v11 main_c_3
  let main_v13 : IVec S_ 1 := andi main_v8 main_v12
  let main_v14 : FVec F S16x8192 .f32 := Host.absf main_arg3
  let main_cst_4 : FVec F S_ .f32 := constant S_ .f32 0x7F800000#32
  let main_v15 : FVec F S16x8192 .f32 := broadcastInDim S16x8192 ![] bcast_S_S16x8192 main_cst_4
  let main_v16 : IVec S16x8192 1 := cmpf .olt main_v14 main_v15
  fn_part1 (F := F) main_v13 main_v16
-- ==== Kernel.lean ====
abbrev S4x64x8192 : Shape := ⟨3, ![4, 64, 8192]⟩
abbrev S8192x8192 : Shape := ⟨2, ![8192, 8192]⟩
abbrev S8192x16 : Shape := ⟨2, ![8192, 16]⟩
abbrev S16x8192 : Shape := ⟨2, ![16, 8192]⟩
abbrev S256x8192 : Shape := ⟨2, ![256, 8192]⟩
abbrev S1024x1024 : Shape := ⟨2, ![1024, 1024]⟩
abbrev S1024x16 : Shape := ⟨2, ![1024, 16]⟩
abbrev S256x1024 : Shape := ⟨2, ![256, 1024]⟩
abbrev S256x16 : Shape := ⟨2, ![256, 16]⟩
abbrev S16x1024 : Shape := ⟨2, ![16, 1024]⟩

abbrev nBuf : Space → Nat
  | .hbm => 7
  | .vmem => 10
  | .smem => 0
  | _ => 0

abbrev bufTy : (tb : Table) → Fin (tcTables nBuf tb) → BufTy
  | .hbm, ⟨0, _⟩ => ⟨S4x64x8192, .f32⟩
  | .hbm, ⟨1, _⟩ => ⟨S8192x8192, .f32⟩
  | .hbm, ⟨2, _⟩ => ⟨S8192x16, .f32⟩
  | .hbm, ⟨3, _⟩ => ⟨S16x8192, .f32⟩
  | .hbm, ⟨4, _⟩ => ⟨S256x8192, .f32⟩
  | .hbm, ⟨5, _⟩ => ⟨S256x8192, .f32⟩
  | .hbm, ⟨6, _⟩ => ⟨S4x64x8192, .f32⟩
  | .local _ .vmem, ⟨0, _⟩ => ⟨S256x8192, .f32⟩
  | .local _ .vmem, ⟨1, _⟩ => ⟨S1024x1024, .f32⟩
  | .local _ .vmem, ⟨2, _⟩ => ⟨S1024x1024, .f32⟩
  | .local _ .vmem, ⟨3, _⟩ => ⟨S1024x16, .f32⟩
  | .local _ .vmem, ⟨4, _⟩ => ⟨S1024x16, .f32⟩
  | .local _ .vmem, ⟨5, _⟩ => ⟨S16x8192, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x16, .f32⟩
  | _, _ => ⟨S4x64x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c1024_i32 : BitVec 32 := 1024#32
  let v3 : BitVec 32 := Scalar.muli arg1 c1024_i32
  v3
def k0_off1 (i : grid0.Coords) : Fin 2 → Nat :=
  let c0 : Index := 0#32
  let arg1 : BitVec 32 := BitVec.ofNat 32 (i 1).val
  let c1024_i32 : BitVec 32 := 1024#32
  let v3 : BitVec 32 := Scalar.muli arg1 c1024_i32
  let v4 : BitVec 32 := v3
  let v5 : Index := Scalar.indexCast v4
  ![0, v5.toNat]
def k0_off2 (i : grid0.Coords) : Fin 2 → Nat :=
  let c0_7 : Index := 0#32
  let arg1 : BitVec 32 := BitVec.ofNat 32 (i 1).val
  let c1024_i32 : BitVec 32 := 1024#32
  let v3 : BitVec 32 := Scalar.muli arg1 c1024_i32
  let v4 : BitVec 32 := v3
  let v17 : Index := Scalar.indexCast v4
  ![0, v17.toNat]
def k0_cond2 (i : grid0.Coords) : BitVec 1 :=
  let arg1 : BitVec 32 := BitVec.ofNat 32 (i 1).val
  let c7_i32 : BitVec 32 := 7#32
  let v26 : BitVec 1 := Scalar.cmpi .eq arg1 c7_i32
  let v27 : BitVec 32 := Scalar.extui v26
  let c0_i32_13 : BitVec 32 := 0#32
  let v28 : BitVec 1 := Scalar.cmpi .ne v27 c0_i32_13
  v28

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S256x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S16x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S4x64x8192_S256x8192 : S4x64x8192.ShapeCasts S256x8192
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S256x16_S256x16_0_0 : ∀ a, (![0, 0] : Fin 2 → Nat) a + S256x16.size a ≤ S256x16.size a
  h_S256x16 : 0 < S256x16.numel
  shapeCasts_S256x16_S256x16 : S256x16.ShapeCasts S256x16
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  h_S16x1024 : 0 < S16x1024.numel
  inb_S1024x16_S1024x16_0_0 : ∀ a, (![0, 0] : Fin 2 → Nat) a + S1024x16.size a ≤ S1024x16.size a
  h_S1024x16 : 0 < S1024x16.numel
  shapeCasts_S256x8192_S4x64x8192 : S256x8192.ShapeCasts S4x64x8192
  dot_S256x1024_S1024x1024_S256x1024_1_1_0_0_n_n_wf : DotDims.WF S256x1024 S1024x1024 S256x1024 [1] [1] [0] [0] [] []
  dot_S256x1024_S16x1024_S256x16_1_1_0_0_n_n_wf : DotDims.WF S256x1024 S16x1024 S256x16 [1] [1] [0] [0] [] []
  dot_S256x16_S1024x16_S256x1024_1_1_0_0_n_n_wf : DotDims.WF S256x16 S1024x16 S256x1024 [1] [1] [0] [0] [] []
  hrank0 : 0 < grid0.rank
  k0_mult1_dvd : ∀ i : grid0.Coords, 1024 ∣ (k0_mult1 i).toNat
  k0_off1_inb : ∀ i : grid0.Coords, ∀ a, (k0_off1 i) a + S256x1024.size a ≤ S256x8192.size a
  k0_off2_inb : ∀ i : grid0.Coords, ∀ a, (k0_off2 i) a + S16x1024.size a ≤ S16x8192.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S256x8192.size a
  hwx0_0 : ∀ i : grid0.Coords, EltTy.bits .f32 = 32 ∨ (Rect.block (s := S256x8192) S256x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S8192x8192.size a
  hwx0_1 : ∀ i : grid0.Coords, EltTy.bits .f32 = 32 ∨ (Rect.block (s := S8192x8192) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x16.size a ≤ S8192x16.size a
  hwx0_2 : ∀ i : grid0.Coords, EltTy.bits .f32 = 32 ∨ (Rect.block (s := S8192x16) S1024x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x8192.size a ≤ S16x8192.size a
  hwx0_3 : ∀ i : grid0.Coords, EltTy.bits .f32 = 32 ∨ (Rect.block (s := S16x8192) S16x8192.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1024.size a ≤ S256x8192.size a
  hwx0_4 : ∀ i : grid0.Coords, EltTy.bits .f32 = 32 ∨ (Rect.block (s := S256x8192) S256x1024.size (cc0_transform_4 i) (hinb0_4 i)).WholeWords (EltTy.packing .f32)

variable [Facts₀]

def dot_S256x1024_S1024x1024_S256x1024_1_1_0_0_n_n : DotDims S256x1024 S1024x1024 S256x1024 where
  lhsContracting := [1]
  rhsContracting := [1]
  lhsNonContracting := [0]
  rhsNonContracting := [0]
  lhsBatch := []
  rhsBatch := []
  wf := dot_S256x1024_S1024x1024_S256x1024_1_1_0_0_n_n_wf
def dot_S256x1024_S16x1024_S256x16_1_1_0_0_n_n : DotDims S256x1024 S16x1024 S256x16 where
  lhsContracting := [1]
  rhsContracting := [1]
  lhsNonContracting := [0]
  rhsNonContracting := [0]
  lhsBatch := []
  rhsBatch := []
  wf := dot_S256x1024_S16x1024_S256x16_1_1_0_0_n_n_wf
def dot_S256x16_S1024x16_S256x1024_1_1_0_0_n_n : DotDims S256x16 S1024x16 S256x1024 where
  lhsContracting := [1]
  rhsContracting := [1]
  lhsNonContracting := [0]
  rhsNonContracting := [0]
  lhsBatch := []
  rhsBatch := []
  wf := dot_S256x16_S1024x16_S256x1024_1_1_0_0_n_n_wf

abbrev win0_0 : Pipeline.Window sig grid0 :=
  Pipeline.Window.ofSpec (Memref.whole main_v0) S256x8192.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S16x8192.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S256x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4x64x8192 : Shape := ⟨3, ![4, 64, 8192]⟩
abbrev S8192x8192 : Shape := ⟨2, ![8192, 8192]⟩
abbrev S8192x16 : Shape := ⟨2, ![8192, 16]⟩
abbrev S16x8192 : Shape := ⟨2, ![16, 8192]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S4x64x8192, .f32⟩
  | .hbm, ⟨1, _⟩ => ⟨S8192x8192, .f32⟩
  | .hbm, ⟨2, _⟩ => ⟨S8192x16, .f32⟩
  | .hbm, ⟨3, _⟩ => ⟨S16x8192, .f32⟩
  | .hbm, ⟨4, _⟩ => ⟨S8192x8192, .f32⟩
  | .hbm, ⟨5, _⟩ => ⟨S_, .f32⟩
  | .hbm, ⟨6, _⟩ => ⟨S8192x8192, .f32⟩
  | .hbm, ⟨7, _⟩ => ⟨S8192x8192, .f32⟩
  | .hbm, ⟨8, _⟩ => ⟨S_, .f32⟩
  | .hbm, ⟨9, _⟩ => ⟨S8192x8192, .f32⟩
  | .hbm, ⟨10, _⟩ => ⟨S8192x8192, .f32⟩
  | .hbm, ⟨11, _⟩ => ⟨S8192x8192, .f32⟩
  | .hbm, ⟨12, _⟩ => ⟨S4x64x8192, .f32⟩
  | _, _ => ⟨S4x64x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  dot_S8192x16_S16x8192_S8192x8192_1_0_0_1_n_n_wf : DotDims.WF S8192x16 S16x8192 S8192x8192 [1] [0] [0] [1] [] []
  dot_S4x64x8192_S8192x8192_S4x64x8192_2_1_01_0_n_n_wf : DotDims.WF S4x64x8192 S8192x8192 S4x64x8192 [2] [1] [0, 1] [0] [] []

variable [Facts₀]

def dot_S8192x16_S16x8192_S8192x8192_1_0_0_1_n_n : DotDims S8192x16 S16x8192 S8192x8192 where
  lhsContracting := [1]
  rhsContracting := [0]
  lhsNonContracting := [0]
  rhsNonContracting := [1]
  lhsBatch := []
  rhsBatch := []
  wf := dot_S8192x16_S16x8192_S8192x8192_1_0_0_1_n_n_wf
def dot_S4x64x8192_S8192x8192_S4x64x8192_2_1_01_0_n_n : DotDims S4x64x8192 S8192x8192 S4x64x8192 where
  lhsContracting := [2]
  rhsContracting := [1]
  lhsNonContracting := [0, 1]
  rhsNonContracting := [0]
  lhsBatch := []
  rhsBatch := []
  wf := dot_S4x64x8192_S8192x8192_S4x64x8192_2_1_01_0_n_n_wf

class Facts : Prop extends Facts₀ where

variable [Facts]
-- ==== Proof.Slices.lean ====
/-
  The two column blocks the kernel body reads at a grid point: columns [1024·k, 1024·k + 1024) of the resident
  x block (256 rows) and of the resident B block (16 rows), k the point's second coordinate.
-/
import proofs.«154989_j66494683676793_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces
open Cert.KernelIdeal Cert.KernelIdeal.Gen
variable {F : FTy → Type} [FloatOps F]

/-- The zero offsets of a whole-block access, however spelt. -/
theorem hz : (![0, 0] : Fin 2 → Nat) = fun _ => 0 := funext fun a => by fin_cases a <;> rfl

/-- Columns [1024·k, 1024·k + 1024) of the 256 × 8192 block of x, at the point with coordinates i. -/
abbrev xcol (i : grid0.Coords) (x0 : Vec F S256x8192 .f32) : Vec F S256x1024 .f32 :=
  View.ld x0 (Rect.unit (k0_off1 i) S256x1024.size (k0_off1_inb i))

/-- Columns [1024·k, 1024·k + 1024) of the 16 × 8192 block of B. -/
abbrev bcol (i : grid0.Coords) (x3 : Vec F S16x8192 .f32) : Vec F S16x1024 .f32 :=
  View.ld x3 (Rect.unit (k0_off2 i) S16x1024.size (k0_off2_inb i))

end Cert.KernelIdeal.Pieces
-- ==== Proof.Entries.lean ====
/-
  Entries of a matrix of extended reals named by natural-number coordinates (zero outside the matrix), so that
  statements about blocks, column ranges and re-laid rows are equations between natural numbers; and, for a matrix
  whose entries are all finite, each entry as the coercion of a real.
-/
import Idealize.ShloMosaic.Lib.ValueIdx
import Idealize.ShloMosaic.PureOps.Ideal

noncomputable section

open Idealize.ShloMosaic Idealize.ShloMosaic.ValueIdx

namespace Cert.LoraEntries

/-- The entry at row a, column b; zero outside. -/
def at2 {n0 n1 : ℕ} (X : (⟨2, ![n0, n1]⟩ : Shape).Idx → EReal) (a b : ℕ) : EReal :=
  if h : a < n0 ∧ b < n1 then X (ix2 ⟨a, h.1⟩ ⟨b, h.2⟩) else 0

theorem at2_ix2 {n0 n1 : ℕ} (X : (⟨2, ![n0, n1]⟩ : Shape).Idx → EReal) (a : Fin n0) (b : Fin n1) :
    X (ix2 a b) = at2 X a.val b.val := by
  unfold at2; rw [dif_pos ⟨a.isLt, b.isLt⟩]

/-- An entry at an index whose coordinates are a and b. -/
theorem at2_of_val {n0 n1 : ℕ} (X : (⟨2, ![n0, n1]⟩ : Shape).Idx → EReal) (i : (⟨2, ![n0, n1]⟩ : Shape).Idx)
    (a b : ℕ) (h0 : (i 0).val = a) (h1 : (i 1).val = b) : X i = at2 X a b := by
  subst h0 h1
  exact (congrArg X (eq_ix2 i)).trans (at2_ix2 X (i 0) (i 1))

/-- Every entry is a real number. -/
def Finite2 {n0 n1 : ℕ} (X : (⟨2, ![n0, n1]⟩ : Shape).Idx → EReal) : Prop := ∀ i, X i ≠ ⊤ ∧ X i ≠ ⊥

/-- An entry of a finite matrix is the coercion of its real value. -/
theorem at2_coe {n0 n1 : ℕ} (X : (⟨2, ![n0, n1]⟩ : Shape).Idx → EReal) (hX : Finite2 X) (a b : ℕ) :
    at2 X a b = (((at2 X a b).toReal : ℝ) : EReal) := by
  unfold at2
  split
  · exact (EReal.coe_toReal (hX _).1 (hX _).2).symm
  · simp

end Cert.LoraEntries
-- ==== Proof.BlockReads.lean ====
/-
  The blocks the pipeline hands the body at grid point t = 8·j + k (j the output column block, k the block of the
  contracted axis), as entries of the arrays the region finds:
    the x window is the whole 256 × 8192 array, of which the body takes columns [1024k, 1024k + 1024);
    the W window is rows [1024j, 1024j + 1024), columns [1024k, 1024k + 1024);
    the A window is rows [1024j, 1024j + 1024), all 16 columns;
    the B window is the whole 16 × 8192 array, of which the body takes columns [1024k, 1024k + 1024).
-/
import proofs.«154989_j66494683676793_2_alg».proof.Proof.Slices
import proofs.«154989_j66494683676793_2_alg».proof.Proof.Entries
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Reads
open Cert.KernelIdeal Cert.KernelIdeal.Gen Cert.KernelIdeal.Pieces Cert.LoraEntries

variable (m : (ℓ : Loc nD τ sig) → Buf (Elt Ideal) ℓ)

/-- The arrays as the region finds them, as matrices of extended reals. -/
abbrev Xv (c : Dev nD) : S256x8192.Idx → EReal := V m c main_v0
abbrev Wv (c : Dev nD) : S8192x8192.Idx → EReal := V m c main_arg1
abbrev Av (c : Dev nD) : S8192x16.Idx → EReal := V m c main_arg2
abbrev Bv (c : Dev nD) : S16x8192.Idx → EReal := V m c main_arg3

/-- The windows' block indices and the second grid coordinate at point t, decided over the 64 points. -/
theorem idx_facts : ∀ t : Fin cfg0.N,
    win0_0.index t (0 : Fin 2) = 0 ∧ win0_0.index t (1 : Fin 2) = 0
    ∧ win0_1.index t (0 : Fin 2) = t.val / 8 ∧ win0_1.index t (1 : Fin 2) = t.val % 8
    ∧ win0_2.index t (0 : Fin 2) = t.val / 8 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = t.val / 8
    ∧ (grid0.coords t (1 : Fin 2)).val = t.val % 8 :=
  (by decide +kernel : ∀ t : Fin grid0.N, _)

/-- The W block's entry (q, d) is W's entry (1024j + q, 1024k + d). -/
theorem wblk (c : Dev nD) (t : Fin cfg0.N) (q d : Fin 1024) :
    (iblk m c 1 t : Vec Ideal S1024x1024 .f32) (ix2 q d)
      = at2 (Wv m c) (1024 * (t.val / 8) + q.val) (1024 * (t.val % 8) + d.val) := by
  obtain ⟨-, -, h10, h11, -⟩ := idx_facts t
  unfold iblk
  rw [View.read_apply]
  show Wv m c _ = _
  refine at2_of_val _ _ _ _ ?_ ?_
  · show win0_1.index t 0 * 1024 + 1 * q.val = _; rw [h10]; omega
  · show win0_1.index t 1 * 1024 + 1 * d.val = _; rw [h11]; omega

/-- The A block's entry (q, r) is A's entry (1024j + q, r). -/
theorem ablk (c : Dev nD) (t : Fin cfg0.N) (q : Fin 1024) (r : Fin 16) :
    (iblk m c 2 t : Vec Ideal S1024x16 .f32) (ix2 q r) = at2 (Av m c) (1024 * (t.val / 8) + q.val) r.val := by
  obtain ⟨-, -, -, -, h20, h21, -⟩ := idx_facts t
  unfold iblk
  rw [View.read_apply]
  show Av m c _ = _
  refine at2_of_val _ _ _ _ ?_ ?_
  · show win0_2.index t 0 * 1024 + 1 * q.val = _; rw [h20]; omega
  · show win0_2.index t 1 * 16 + 1 * r.val = _; rw [h21]; omega

/-- The x block's entry (p, D) is x's entry (p, D). -/
theorem xblk (c : Dev nD) (t : Fin cfg0.N) (y : S256x8192.Idx) (a b : ℕ) (ha : (y 0).val = a) (hb : (y 1).val = b) :
    (iblk m c 0 t : Vec Ideal S256x8192 .f32) y = at2 (Xv m c) a b := by
  obtain ⟨h00, h01, -⟩ := idx_facts t
  unfold iblk
  rw [View.read_apply]
  show Xv m c _ = _
  refine at2_of_val _ _ _ _ ?_ ?_
  · show win0_0.index t 0 * 256 + 1 * (y 0).val = _; rw [h00]; omega
  · show win0_0.index t 1 * 8192 + 1 * (y 1).val = _; rw [h01]; omega

/-- The B block's entry (r, D) is B's entry (r, D). -/
theorem bblk (c : Dev nD) (t : Fin cfg0.N) (y : S16x8192.Idx) (a b : ℕ) (ha : (y 0).val = a) (hb : (y 1).val = b) :
    (iblk m c 3 t : Vec Ideal S16x8192 .f32) y = at2 (Bv m c) a b := by
  obtain ⟨-, -, -, -, -, -, h30, h31, -⟩ := idx_facts t
  unfold iblk
  rw [View.read_apply]
  show Bv m c _ = _
  refine at2_of_val _ _ _ _ ?_ ?_
  · show win0_3.index t 0 * 16 + 1 * (y 0).val = _; rw [h30]; omega
  · show win0_3.index t 1 * 8192 + 1 * (y 1).val = _; rw [h31]; omega

/-- The x column block's entry (p, d) at point t is x's entry (p, 1024k + d). -/
theorem xcol_apply (c : Dev nD) (t : Fin cfg0.N) (p : Fin 256) (d : Fin 1024) :
    xcol (grid0.coords t) (iblk m c 0 t) (ix2 p d) = at2 (Xv m c) p.val (1024 * (t.val % 8) + d.val) := by
  have hk := (idx_facts t).2.2.2.2.2.2.2.2.2.2
  refine xblk m c t _ _ _ ?_ ?_
  · show k0_off1 (grid0.coords t) 0 + 1 * p.val = p.val
    rw [k0_off1_eq]; show 0 + 1 * p.val = p.val; omega
  · show k0_off1 (grid0.coords t) 1 + 1 * d.val = _
    rw [k0_off1_eq]; show 1024 * (grid0.coords t 1).val + 1 * d.val = _; rw [hk]; omega

/-- The B column block's entry (r, d) at point t is B's entry (r, 1024k + d). -/
theorem bcol_apply (c : Dev nD) (t : Fin cfg0.N) (r : Fin 16) (d : Fin 1024) :
    bcol (grid0.coords t) (iblk m c 3 t) (ix2 r d) = at2 (Bv m c) r.val (1024 * (t.val % 8) + d.val) := by
  have hk := (idx_facts t).2.2.2.2.2.2.2.2.2.2
  refine bblk m c t _ _ _ ?_ ?_
  · show k0_off2 (grid0.coords t) 0 + 1 * r.val = r.val
    rw [k0_off2_eq]; show 0 + 1 * r.val = r.val; omega
  · show k0_off2 (grid0.coords t) 1 + 1 * d.val = _
    rw [k0_off2_eq]; show 1024 * (grid0.coords t 1).val + 1 * d.val = _; rw [hk]; omega

end Cert.KernelIdeal.Reads
-- ==== Proof.Payload.lean ====
/-
  The body's three arithmetic steps read at one entry, over the extended reals.

  With the change of float format the identity and a matrix product into the zero block a plain sum:
    the main step      at (p, q):  acc (p, q) + the sum over d < 1024 of xk (p, d) · w (q, d);
    the low-rank step  at (p, r):  xb (p, r)  + the sum over d < 1024 of xk (p, d) · bk (r, d);
    the output         at (p, q):  acc (p, q) + one · the sum over r < 16 of xb (p, r) · a (q, r).
  Every product contracts the second axis of both operands, so the operand entries are (row, d) and (column, d).
-/
import proofs.«154989_j66494683676793_2_alg».proof.Proof.Gen.KernelIdeal.Skeleton
import Idealize.ShloMosaic.Lib.ValueIdx
import Idealize.ShloMosaic.Lib.Pipeline.Value
import Idealize.ShloMosaic.PureOps.Ideal.Laws

noncomputable section

open Idealize.ShloMosaic Idealize.ShloMosaic.TcCoe Idealize.SL.Sem Idealize.ShloMosaic.ValueIdx

namespace Cert.KernelIdeal.Payload
open Cert.KernelIdeal Cert.KernelIdeal.Gen

/-! ### the x column block against the W block -/

theorem lhsW_0 (i : S256x1024.Idx) (q : dot_S256x1024_S1024x1024_S256x1024_1_1_0_0_n_n.contr.Idx) :
    (dot_S256x1024_S1024x1024_S256x1024_1_1_0_0_n_n.lhsIdx i q 0).val = (i 0).val := by
  unfold DotDims.lhsIdx
  rw [dif_neg (show ¬(0 : Fin S256x1024.rank) ∈ dot_S256x1024_S1024x1024_S256x1024_1_1_0_0_n_n.lhsBatch by decide), dif_pos (show (0 : Fin S256x1024.rank) ∈ dot_S256x1024_S1024x1024_S256x1024_1_1_0_0_n_n.lhsNonContracting by decide)]
  rfl
theorem lhsW_1 (i : S256x1024.Idx) (q : dot_S256x1024_S1024x1024_S256x1024_1_1_0_0_n_n.contr.Idx) :
    (dot_S256x1024_S1024x1024_S256x1024_1_1_0_0_n_n.lhsIdx i q 1).val = (q ⟨0, by decide⟩).val :=
  dot_S256x1024_S1024x1024_S256x1024_1_1_0_0_n_n.lhsIdx_val_of_single rfl i q
theorem rhsW_0 (i : S256x1024.Idx) (q : dot_S256x1024_S1024x1024_S256x1024_1_1_0_0_n_n.contr.Idx) :
    (dot_S256x1024_S1024x1024_S256x1024_1_1_0_0_n_n.rhsIdx i q 0).val = (i 1).val := by
  unfold DotDims.rhsIdx
  rw [dif_neg (show ¬(0 : Fin S1024x1024.rank) ∈ dot_S256x1024_S1024x1024_S256x1024_1_1_0_0_n_n.rhsBatch by decide), dif_pos (show (0 : Fin S1024x1024.rank) ∈ dot_S256x1024_S1024x1024_S256x1024_1_1_0_0_n_n.rhsNonContracting by decide)]
  rfl
theorem rhsW_1 (i : S256x1024.Idx) (q : dot_S256x1024_S1024x1024_S256x1024_1_1_0_0_n_n.contr.Idx) :
    (dot_S256x1024_S1024x1024_S256x1024_1_1_0_0_n_n.rhsIdx i q 1).val = (q ⟨0, by decide⟩).val :=
  dot_S256x1024_S1024x1024_S256x1024_1_1_0_0_n_n.rhsIdx_val_of_single rfl i q

/-- The product into the zero block at entry (p, q): the sum over the contracted coordinate d of
    left (p, d) · right (q, d). -/
theorem mmW_apply {φ₁ φ₂ : FTy} (L : FVec Ideal S256x1024 φ₁) (R : FVec Ideal S1024x1024 φ₂) (p : Fin 256) (q : Fin 1024) :
    matmul dot_S256x1024_S1024x1024_S256x1024_1_1_0_0_n_n none L R (constant (F := Ideal) S256x1024 .f32 0x00000000#32) (ix2 p q)
      = ∑ d : Fin 1024, L (ix2 p d) * R (ix2 q d) := by
  refine (Ideal.matmul_constant_zero_apply dot_S256x1024_S1024x1024_S256x1024_1_1_0_0_n_n none L R (ix2 p q)).trans ?_
  rw [← Equiv.sum_comp (contrEquiv1 dot_S256x1024_S1024x1024_S256x1024_1_1_0_0_n_n 1024 rfl rfl).symm]
  refine Finset.sum_congr rfl fun k _ => ?_
  have hk := contrEquiv1_symm_val dot_S256x1024_S1024x1024_S256x1024_1_1_0_0_n_n 1024 rfl rfl k
  have el : dot_S256x1024_S1024x1024_S256x1024_1_1_0_0_n_n.lhsIdx (ix2 p q) ((contrEquiv1 dot_S256x1024_S1024x1024_S256x1024_1_1_0_0_n_n 1024 rfl rfl).symm k) = ix2 p k := funext fun a => Fin.ext (by
    match a with
    | ⟨0, _⟩ => exact lhsW_0 _ _
    | ⟨1, _⟩ => exact (lhsW_1 _ _).trans hk)
  have er : dot_S256x1024_S1024x1024_S256x1024_1_1_0_0_n_n.rhsIdx (ix2 p q) ((contrEquiv1 dot_S256x1024_S1024x1024_S256x1024_1_1_0_0_n_n 1024 rfl rfl).symm k) = ix2 q k := funext fun a => Fin.ext (by
    match a with
    | ⟨0, _⟩ => exact rhsW_0 _ _
    | ⟨1, _⟩ => exact (rhsW_1 _ _).trans hk)
  rw [el, er]

/-! ### the x column block against the B column block -/

theorem lhsB_0 (i : S256x16.Idx) (q : dot_S256x1024_S16x1024_S256x16_1_1_0_0_n_n.contr.Idx) :
    (dot_S256x1024_S16x1024_S256x16_1_1_0_0_n_n.lhsIdx i q 0).val = (i 0).val := by
  unfold DotDims.lhsIdx
  rw [dif_neg (show ¬(0 : Fin S256x1024.rank) ∈ dot_S256x1024_S16x1024_S256x16_1_1_0_0_n_n.lhsBatch by decide), dif_pos (show (0 : Fin S256x1024.rank) ∈ dot_S256x1024_S16x1024_S256x16_1_1_0_0_n_n.lhsNonContracting by decide)]
  rfl
theorem lhsB_1 (i : S256x16.Idx) (q : dot_S256x1024_S16x1024_S256x16_1_1_0_0_n_n.contr.Idx) :
    (dot_S256x1024_S16x1024_S256x16_1_1_0_0_n_n.lhsIdx i q 1).val = (q ⟨0, by decide⟩).val :=
  dot_S256x1024_S16x1024_S256x16_1_1_0_0_n_n.lhsIdx_val_of_single rfl i q
theorem rhsB_0 (i : S256x16.Idx) (q : dot_S256x1024_S16x1024_S256x16_1_1_0_0_n_n.contr.Idx) :
    (dot_S256x1024_S16x1024_S256x16_1_1_0_0_n_n.rhsIdx i q 0).val = (i 1).val := by
  unfold DotDims.rhsIdx
  rw [dif_neg (show ¬(0 : Fin S16x1024.rank) ∈ dot_S256x1024_S16x1024_S256x16_1_1_0_0_n_n.rhsBatch by decide), dif_pos (show (0 : Fin S16x1024.rank) ∈ dot_S256x1024_S16x1024_S256x16_1_1_0_0_n_n.rhsNonContracting by decide)]
  rfl
theorem rhsB_1 (i : S256x16.Idx) (q : dot_S256x1024_S16x1024_S256x16_1_1_0_0_n_n.contr.Idx) :
    (dot_S256x1024_S16x1024_S256x16_1_1_0_0_n_n.rhsIdx i q 1).val = (q ⟨0, by decide⟩).val :=
  dot_S256x1024_S16x1024_S256x16_1_1_0_0_n_n.rhsIdx_val_of_single rfl i q

/-- The product into the zero block at entry (p, q): the sum over the contracted coordinate d of
    left (p, d) · right (q, d). -/
theorem mmB_apply {φ₁ φ₂ : FTy} (L : FVec Ideal S256x1024 φ₁) (R : FVec Ideal S16x1024 φ₂) (p : Fin 256) (q : Fin 16) :
    matmul dot_S256x1024_S16x1024_S256x16_1_1_0_0_n_n none L R (constant (F := Ideal) S256x16 .f32 0x00000000#32) (ix2 p q)
      = ∑ d : Fin 1024, L (ix2 p d) * R (ix2 q d) := by
  refine (Ideal.matmul_constant_zero_apply dot_S256x1024_S16x1024_S256x16_1_1_0_0_n_n none L R (ix2 p q)).trans ?_
  rw [← Equiv.sum_comp (contrEquiv1 dot_S256x1024_S16x1024_S256x16_1_1_0_0_n_n 1024 rfl rfl).symm]
  refine Finset.sum_congr rfl fun k _ => ?_
  have hk := contrEquiv1_symm_val dot_S256x1024_S16x1024_S256x16_1_1_0_0_n_n 1024 rfl rfl k
  have el : dot_S256x1024_S16x1024_S256x16_1_1_0_0_n_n.lhsIdx (ix2 p q) ((contrEquiv1 dot_S256x1024_S16x1024_S256x16_1_1_0_0_n_n 1024 rfl rfl).symm k) = ix2 p k := funext fun a => Fin.ext (by
    match a with
    | ⟨0, _⟩ => exact lhsB_0 _ _
    | ⟨1, _⟩ => exact (lhsB_1 _ _).trans hk)
  have er : dot_S256x1024_S16x1024_S256x16_1_1_0_0_n_n.rhsIdx (ix2 p q) ((contrEquiv1 dot_S256x1024_S16x1024_S256x16_1_1_0_0_n_n 1024 rfl rfl).symm k) = ix2 q k := funext fun a => Fin.ext (by
    match a with
    | ⟨0, _⟩ => exact rhsB_0 _ _
    | ⟨1, _⟩ => exact (rhsB_1 _ _).trans hk)
  rw [el, er]

/-! ### the low-rank accumulator against the A block -/

theorem lhsA_0 (i : S256x1024.Idx) (q : dot_S256x16_S1024x16_S256x1024_1_1_0_0_n_n.contr.Idx) :
    (dot_S256x16_S1024x16_S256x1024_1_1_0_0_n_n.lhsIdx i q 0).val = (i 0).val := by
  unfold DotDims.lhsIdx
  rw [dif_neg (show ¬(0 : Fin S256x16.rank) ∈ dot_S256x16_S1024x16_S256x1024_1_1_0_0_n_n.lhsBatch by decide), dif_pos (show (0 : Fin S256x16.rank) ∈ dot_S256x16_S1024x16_S256x1024_1_1_0_0_n_n.lhsNonContracting by decide)]
  rfl
theorem lhsA_1 (i : S256x1024.Idx) (q : dot_S256x16_S1024x16_S256x1024_1_1_0_0_n_n.contr.Idx) :
    (dot_S256x16_S1024x16_S256x1024_1_1_0_0_n_n.lhsIdx i q 1).val = (q ⟨0, by decide⟩).val :=
  dot_S256x16_S1024x16_S256x1024_1_1_0_0_n_n.lhsIdx_val_of_single rfl i q
theorem rhsA_0 (i : S256x1024.Idx) (q : dot_S256x16_S1024x16_S256x1024_1_1_0_0_n_n.contr.Idx) :
    (dot_S256x16_S1024x16_S256x1024_1_1_0_0_n_n.rhsIdx i q 0).val = (i 1).val := by
  unfold DotDims.rhsIdx
  rw [dif_neg (show ¬(0 : Fin S1024x16.rank) ∈ dot_S256x16_S1024x16_S256x1024_1_1_0_0_n_n.rhsBatch by decide), dif_pos (show (0 : Fin S1024x16.rank) ∈ dot_S256x16_S1024x16_S256x1024_1_1_0_0_n_n.rhsNonContracting by decide)]
  rfl
theorem rhsA_1 (i : S256x1024.Idx) (q : dot_S256x16_S1024x16_S256x1024_1_1_0_0_n_n.contr.Idx) :
    (dot_S256x16_S1024x16_S256x1024_1_1_0_0_n_n.rhsIdx i q 1).val = (q ⟨0, by decide⟩).val :=
  dot_S256x16_S1024x16_S256x1024_1_1_0_0_n_n.rhsIdx_val_of_single rfl i q

/-- The product into the zero block at entry (p, q): the sum over the contracted coordinate d of
    left (p, d) · right (q, d). -/
theorem mmA_apply {φ₁ φ₂ : FTy} (L : FVec Ideal S256x16 φ₁) (R : FVec Ideal S1024x16 φ₂) (p : Fin 256) (q : Fin 1024) :
    matmul dot_S256x16_S1024x16_S256x1024_1_1_0_0_n_n none L R (constant (F := Ideal) S256x1024 .f32 0x00000000#32) (ix2 p q)
      = ∑ d : Fin 16, L (ix2 p d) * R (ix2 q d) := by
  refine (Ideal.matmul_constant_zero_apply dot_S256x16_S1024x16_S256x1024_1_1_0_0_n_n none L R (ix2 p q)).trans ?_
  rw [← Equiv.sum_comp (contrEquiv1 dot_S256x16_S1024x16_S256x1024_1_1_0_0_n_n 16 rfl rfl).symm]
  refine Finset.sum_congr rfl fun k _ => ?_
  have hk := contrEquiv1_symm_val dot_S256x16_S1024x16_S256x1024_1_1_0_0_n_n 16 rfl rfl k
  have el : dot_S256x16_S1024x16_S256x1024_1_1_0_0_n_n.lhsIdx (ix2 p q) ((contrEquiv1 dot_S256x16_S1024x16_S256x1024_1_1_0_0_n_n 16 rfl rfl).symm k) = ix2 p k := funext fun a => Fin.ext (by
    match a with
    | ⟨0, _⟩ => exact lhsA_0 _ _
    | ⟨1, _⟩ => exact (lhsA_1 _ _).trans hk)
  have er : dot_S256x16_S1024x16_S256x1024_1_1_0_0_n_n.rhsIdx (ix2 p q) ((contrEquiv1 dot_S256x16_S1024x16_S256x1024_1_1_0_0_n_n 16 rfl rfl).symm k) = ix2 q k := funext fun a => Fin.ext (by
    match a with
    | ⟨0, _⟩ => exact rhsA_0 _ _
    | ⟨1, _⟩ => exact (rhsA_1 _ _).trans hk)
  rw [el, er]

/-! ### The three steps at an entry -/

/-- The main step: the accumulator's entry plus this point's partial product. -/
theorem step_main (xk : Vec Ideal S256x1024 .f32) (w : Vec Ideal S1024x1024 .f32) (acc : Vec Ideal S256x1024 .f32)
    (p : Fin 256) (q : Fin 1024) :
    k0_pay4 (F := Ideal) xk w acc (ix2 p q) = acc (ix2 p q) + ∑ d : Fin 1024, xk (ix2 p d) * w (ix2 q d) := by
  unfold k0_pay4 k0_pay3
  simp only [shapeCast_self]
  exact congrArg (acc (ix2 p q) + ·) (mmW_apply _ _ p q)

/-- The low-rank step: the accumulator's entry plus this point's partial product. -/
theorem step_lowrank (xk : Vec Ideal S256x1024 .f32) (bk : Vec Ideal S16x1024 .f32) (xb : Vec Ideal S256x16 .f32)
    (p : Fin 256) (r : Fin 16) :
    k0_pay5 (F := Ideal) xk bk xb (ix2 p r) = xb (ix2 p r) + ∑ d : Fin 1024, xk (ix2 p d) * bk (ix2 r d) := by
  unfold k0_pay5 k0_pay3
  simp only [shapeCast_self]
  exact congrArg (xb (ix2 p r) + ·) (mmB_apply _ _ p r)

/-- The output: the main accumulator's entry plus one times the low-rank product's. -/
theorem step_out (a : Vec Ideal S1024x16 .f32) (xb : Vec Ideal S256x16 .f32) (acc : Vec Ideal S256x1024 .f32)
    (p : Fin 256) (q : Fin 1024) :
    k0_pay6 (F := Ideal) a xb acc (ix2 p q)
      = acc (ix2 p q) + Ideal.ofBits .f32 0x3F800000#32 * ∑ r : Fin 16, xb (ix2 p r) * a (ix2 q r) := by
  unfold k0_pay6
  exact congrArg (fun z => acc (ix2 p q) + Ideal.ofBits .f32 0x3F800000#32 * z) (mmA_apply _ _ p q)

/-- The zero block the accumulators are reset to reads zero. -/
theorem zero_main (i : S256x1024.Idx) : k0_pay1 (F := Ideal) i = 0 := by
  unfold k0_pay1
  simp only [shapeCast_self]
  exact Ideal.ofBits_zero_f32
theorem zero_lowrank (i : S256x16.Idx) : k0_pay2 (F := Ideal) i = 0 := by
  unfold k0_pay2
  simp only [shapeCast_self]
  exact Ideal.ofBits_zero_f32

end Cert.KernelIdeal.Payload
-- ==== Proof.PiecesA.lean ====
/-
  What the body leaves at a point that is first on the contracted grid axis: each accumulator is zeroed, read
  back, and left at zero plus this point's product.
-/
import proofs.«154989_j66494683676793_2_alg».proof.Proof.Slices
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces
open Cert.KernelIdeal Cert.KernelIdeal.Gen
variable {F : FTy → Type} [FloatOps F]

/-- The main accumulator after the point: the zero block plus this point's x column block times the W block. -/
theorem accA (c : Dev nD) (i : grid0.Coords) (arg2 : Memref sig .tc .vmem S256x8192 .f32) (harg2 : arg2.IsWhole) (arg3 : Memref sig .tc .vmem S1024x1024 .f32) (harg3 : arg3.IsWhole) (arg4 : Memref sig .tc .vmem S1024x16 .f32) (harg4 : arg4.IsWhole) (arg5 : Memref sig .tc .vmem S16x8192 .f32) (harg5 : arg5.IsWhole) (arg6 : Memref sig .tc .vmem S256x1024 .f32) (harg6 : arg6.IsWhole) (arg7 : Memref sig .tc .vmem S256x1024 .f32) (harg7 : arg7.IsWhole) (arg8 : Memref sig .tc .vmem S256x16 .f32) (harg8 : arg8.IsWhole) (hc0 : cond0_0 i) (hc1 : ¬cond0_1 i)
    (x0 : Vec F S256x8192 .f32) (x1 : Vec F S1024x1024 .f32) (x2 : Vec F S1024x16 .f32) (x3 : Vec F S16x8192 .f32) :
    sout0_A_0 c i arg2 harg2 arg3 harg3 arg4 harg4 arg5 harg5 arg6 harg6 arg7 harg7 arg8 harg8 hc0 hc1 x0 x1 x2 x3 = k0_pay4 (xcol i x0) x1 k0_pay1 := by
  unfold sout0_A_0
  rw [View.read_writes_eq_canon _ _ _ (scover0_A_0 c i arg2 harg2 arg3 harg3 arg4 harg4 arg5 harg5 arg6 harg6 arg7 harg7 arg8 harg8 hc0 hc1 x0 x1 x2 x3)]
  unfold kernelRun0_A
  dsimp only
  sl_unfold_words
  rw [View.canon_cons_unit_zero (S := S256x1024) hz, View.readCov_unit_zero (S := S256x1024) _ hz]
  simp only [View.readAt_eq_ld, harg2.read_unread, harg3.read_unread,
    View.ld_unit_zero (S := S1024x1024) hz]
  rfl

/-- The low-rank accumulator after the point: the zero block plus the x column block times the B column block. -/
theorem xbA (c : Dev nD) (i : grid0.Coords) (arg2 : Memref sig .tc .vmem S256x8192 .f32) (harg2 : arg2.IsWhole) (arg3 : Memref sig .tc .vmem S1024x1024 .f32) (harg3 : arg3.IsWhole) (arg4 : Memref sig .tc .vmem S1024x16 .f32) (harg4 : arg4.IsWhole) (arg5 : Memref sig .tc .vmem S16x8192 .f32) (harg5 : arg5.IsWhole) (arg6 : Memref sig .tc .vmem S256x1024 .f32) (harg6 : arg6.IsWhole) (arg7 : Memref sig .tc .vmem S256x1024 .f32) (harg7 : arg7.IsWhole) (arg8 : Memref sig .tc .vmem S256x16 .f32) (harg8 : arg8.IsWhole) (hc0 : cond0_0 i) (hc1 : ¬cond0_1 i)
    (x0 : Vec F S256x8192 .f32) (x1 : Vec F S1024x1024 .f32) (x2 : Vec F S1024x16 .f32) (x3 : Vec F S16x8192 .f32) :
    sout0_A_1 c i arg2 harg2 arg3 harg3 arg4 harg4 arg5 harg5 arg6 harg6 arg7 harg7 arg8 harg8 hc0 hc1 x0 x1 x2 x3 = k0_pay5 (xcol i x0) (bcol i x3) k0_pay2 := by
  unfold sout0_A_1
  rw [View.read_writes_eq_canon _ _ _ (scover0_A_1 c i arg2 harg2 arg3 harg3 arg4 harg4 arg5 harg5 arg6 harg6 arg7 harg7 arg8 harg8 hc0 hc1 x0 x1 x2 x3)]
  unfold kernelRun0_A
  dsimp only
  sl_unfold_words
  rw [View.canon_cons_unit_zero (S := S256x16) hz, View.readCov_unit_zero (S := S256x16) _ hz]
  simp only [View.readAt_eq_ld, harg2.read_unread, harg5.read_unread]
  rfl

end Cert.KernelIdeal.Pieces
-- ==== Proof.PiecesB.lean ====
/-
  What the body leaves at a point that is neither first nor last on the contracted grid axis: each accumulator
  at its contents before the point plus this point's product.
-/
import proofs.«154989_j66494683676793_2_alg».proof.Proof.Slices
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces
open Cert.KernelIdeal Cert.KernelIdeal.Gen
variable {F : FTy → Type} [FloatOps F]

/-- The main accumulator after the point: its contents before, plus this point's x column block times the W block. -/
theorem accB (c : Dev nD) (i : grid0.Coords) (arg2 : Memref sig .tc .vmem S256x8192 .f32) (harg2 : arg2.IsWhole) (arg3 : Memref sig .tc .vmem S1024x1024 .f32) (harg3 : arg3.IsWhole) (arg4 : Memref sig .tc .vmem S1024x16 .f32) (harg4 : arg4.IsWhole) (arg5 : Memref sig .tc .vmem S16x8192 .f32) (harg5 : arg5.IsWhole) (arg6 : Memref sig .tc .vmem S256x1024 .f32) (harg6 : arg6.IsWhole) (arg7 : Memref sig .tc .vmem S256x1024 .f32) (harg7 : arg7.IsWhole) (arg8 : Memref sig .tc .vmem S256x16 .f32) (harg8 : arg8.IsWhole) (hc0 : ¬cond0_0 i) (hc1 : ¬cond0_1 i)
    (x0 : Vec F S256x8192 .f32) (x1 : Vec F S1024x1024 .f32) (x2 : Vec F S1024x16 .f32) (x3 : Vec F S16x8192 .f32) (xs0 : Vec F S256x1024 .f32) (xs1 : Vec F S256x16 .f32) :
    sout0_B_0 c i arg2 harg2 arg3 harg3 arg4 harg4 arg5 harg5 arg6 harg6 arg7 harg7 arg8 harg8 hc0 hc1 x0 x1 x2 x3 xs0 xs1 = k0_pay4 (xcol i x0) x1 xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 x3 xs0 xs1)]
  unfold kernelRun0_B
  dsimp only
  sl_unfold_words
  rw [View.canon_unit_zero hz]
  simp only [View.readAt_eq_ld, harg2.read_unread, harg3.read_unread, harg7.read_unread,
    View.ld_unit_zero (S := S1024x1024) hz, View.ld_unit_zero (S := S256x1024) hz]
  rfl

/-- The low-rank accumulator after the point: its contents before, plus the x column block times the B column block. -/
theorem xbB (c : Dev nD) (i : grid0.Coords) (arg2 : Memref sig .tc .vmem S256x8192 .f32) (harg2 : arg2.IsWhole) (arg3 : Memref sig .tc .vmem S1024x1024 .f32) (harg3 : arg3.IsWhole) (arg4 : Memref sig .tc .vmem S1024x16 .f32) (harg4 : arg4.IsWhole) (arg5 : Memref sig .tc .vmem S16x8192 .f32) (harg5 : arg5.IsWhole) (arg6 : Memref sig .tc .vmem S256x1024 .f32) (harg6 : arg6.IsWhole) (arg7 : Memref sig .tc .vmem S256x1024 .f32) (harg7 : arg7.IsWhole) (arg8 : Memref sig .tc .vmem S256x16 .f32) (harg8 : arg8.IsWhole) (hc0 : ¬cond0_0 i) (hc1 : ¬cond0_1 i)
    (x0 : Vec F S256x8192 .f32) (x1 : Vec F S1024x1024 .f32) (x2 : Vec F S1024x16 .f32) (x3 : Vec F S16x8192 .f32) (xs0 : Vec F S256x1024 .f32) (xs1 : Vec F S256x16 .f32) :
    sout0_B_1 c i arg2 harg2 arg3 harg3 arg4 harg4 arg5 harg5 arg6 harg6 arg7 harg7 arg8 harg8 hc0 hc1 x0 x1 x2 x3 xs0 xs1 = k0_pay5 (xcol i x0) (bcol i x3) xs1 := by
  unfold sout0_B_1
  rw [View.read_writes_eq_canon _ _ _ (scover0_B_1 c i arg2 harg2 arg3 harg3 arg4 harg4 arg5 harg5 arg6 harg6 arg7 harg7 arg8 harg8 hc0 hc1 x0 x1 x2 x3 xs0 xs1)]
  unfold kernelRun0_B
  dsimp only
  sl_unfold_words
  rw [View.canon_unit_zero hz]
  simp only [View.readAt_eq_ld, harg2.read_unread, harg5.read_unread, harg8.read_unread,
    View.ld_unit_zero (S := S256x16) hz]
  rfl

end Cert.KernelIdeal.Pieces
-- ==== Proof.PiecesC.lean ====
/-
  What the body leaves at a point that is last on the contracted grid axis and not first: both accumulators
  stepped once more, and the output block at the main accumulator plus one times the low-rank product, read
  from the accumulators AFTER this point's step.
-/
import proofs.«154989_j66494683676793_2_alg».proof.Proof.Slices
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces
open Cert.KernelIdeal Cert.KernelIdeal.Gen
variable {F : FTy → Type} [FloatOps F]

/-- The main accumulator after the point: its contents before, plus this point's x column block times the W block. -/
theorem accC (c : Dev nD) (i : grid0.Coords) (arg2 : Memref sig .tc .vmem S256x8192 .f32) (harg2 : arg2.IsWhole) (arg3 : Memref sig .tc .vmem S1024x1024 .f32) (harg3 : arg3.IsWhole) (arg4 : Memref sig .tc .vmem S1024x16 .f32) (harg4 : arg4.IsWhole) (arg5 : Memref sig .tc .vmem S16x8192 .f32) (harg5 : arg5.IsWhole) (arg6 : Memref sig .tc .vmem S256x1024 .f32) (harg6 : arg6.IsWhole) (arg7 : Memref sig .tc .vmem S256x1024 .f32) (harg7 : arg7.IsWhole) (arg8 : Memref sig .tc .vmem S256x16 .f32) (harg8 : arg8.IsWhole) (hc0 : ¬cond0_0 i) (hc1 : cond0_1 i)
    (x0 : Vec F S256x8192 .f32) (x1 : Vec F S1024x1024 .f32) (x2 : Vec F S1024x16 .f32) (x3 : Vec F S16x8192 .f32) (xs0 : Vec F S256x1024 .f32) (xs1 : Vec F S256x16 .f32) :
    sout0_C_0 c i arg2 harg2 arg3 harg3 arg4 harg4 arg5 harg5 arg6 harg6 arg7 harg7 arg8 harg8 hc0 hc1 x0 x1 x2 x3 xs0 xs1 = k0_pay4 (xcol i x0) x1 xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 x3 xs0 xs1)]
  unfold kernelRun0_C
  dsimp only
  sl_unfold_words
  rw [View.canon_unit_zero hz]
  simp only [View.readAt_eq_ld, harg2.read_unread, harg3.read_unread, harg7.read_unread,
    View.ld_unit_zero (S := S1024x1024) hz, View.ld_unit_zero (S := S256x1024) hz]
  rfl

/-- The low-rank accumulator after the point: its contents before, plus the x column block times the B column block. -/
theorem xbC (c : Dev nD) (i : grid0.Coords) (arg2 : Memref sig .tc .vmem S256x8192 .f32) (harg2 : arg2.IsWhole) (arg3 : Memref sig .tc .vmem S1024x1024 .f32) (harg3 : arg3.IsWhole) (arg4 : Memref sig .tc .vmem S1024x16 .f32) (harg4 : arg4.IsWhole) (arg5 : Memref sig .tc .vmem S16x8192 .f32) (harg5 : arg5.IsWhole) (arg6 : Memref sig .tc .vmem S256x1024 .f32) (harg6 : arg6.IsWhole) (arg7 : Memref sig .tc .vmem S256x1024 .f32) (harg7 : arg7.IsWhole) (arg8 : Memref sig .tc .vmem S256x16 .f32) (harg8 : arg8.IsWhole) (hc0 : ¬cond0_0 i) (hc1 : cond0_1 i)
    (x0 : Vec F S256x8192 .f32) (x1 : Vec F S1024x1024 .f32) (x2 : Vec F S1024x16 .f32) (x3 : Vec F S16x8192 .f32) (xs0 : Vec F S256x1024 .f32) (xs1 : Vec F S256x16 .f32) :
    sout0_C_1 c i arg2 harg2 arg3 harg3 arg4 harg4 arg5 harg5 arg6 harg6 arg7 harg7 arg8 harg8 hc0 hc1 x0 x1 x2 x3 xs0 xs1 = k0_pay5 (xcol i x0) (bcol i x3) xs1 := by
  unfold sout0_C_1
  rw [View.read_writes_eq_canon _ _ _ (scover0_C_1 c i arg2 harg2 arg3 harg3 arg4 harg4 arg5 harg5 arg6 harg6 arg7 harg7 arg8 harg8 hc0 hc1 x0 x1 x2 x3 xs0 xs1)]
  unfold kernelRun0_C
  dsimp only
  sl_unfold_words
  rw [View.canon_unit_zero hz]
  simp only [View.readAt_eq_ld, harg2.read_unread, harg5.read_unread, harg8.read_unread,
    View.ld_unit_zero (S := S256x16) hz]
  rfl

/-- The output block: the stepped main accumulator plus one times (the stepped low-rank accumulator times the A block). -/
theorem outC (c : Dev nD) (i : grid0.Coords) (arg2 : Memref sig .tc .vmem S256x8192 .f32) (harg2 : arg2.IsWhole) (arg3 : Memref sig .tc .vmem S1024x1024 .f32) (harg3 : arg3.IsWhole) (arg4 : Memref sig .tc .vmem S1024x16 .f32) (harg4 : arg4.IsWhole) (arg5 : Memref sig .tc .vmem S16x8192 .f32) (harg5 : arg5.IsWhole) (arg6 : Memref sig .tc .vmem S256x1024 .f32) (harg6 : arg6.IsWhole) (arg7 : Memref sig .tc .vmem S256x1024 .f32) (harg7 : arg7.IsWhole) (arg8 : Memref sig .tc .vmem S256x16 .f32) (harg8 : arg8.IsWhole) (hc0 : ¬cond0_0 i) (hc1 : cond0_1 i)
    (x0 : Vec F S256x8192 .f32) (x1 : Vec F S1024x1024 .f32) (x2 : Vec F S1024x16 .f32) (x3 : Vec F S16x8192 .f32) (xs0 : Vec F S256x1024 .f32) (xs1 : Vec F S256x16 .f32) :
    out0_C_4 c i arg2 harg2 arg3 harg3 arg4 harg4 arg5 harg5 arg6 harg6 arg7 harg7 arg8 harg8 hc0 hc1 x0 x1 x2 x3 xs0 xs1
      = k0_pay6 x2 (k0_pay5 (xcol i x0) (bcol i x3) xs1) (k0_pay4 (xcol i x0) x1 xs0) := by
  unfold out0_C_4
  rw [View.read_writes_eq_canon _ _ _ (cover0_C_4 c i arg2 harg2 arg3 harg3 arg4 harg4 arg5 harg5 arg6 harg6 arg7 harg7 arg8 harg8 hc0 hc1 x0 x1 x2 x3 xs0 xs1)]
  unfold kernelRun0_C
  dsimp only
  sl_unfold_words
  rw [View.canon_unit_zero hz, View.readCov_unit_zero (S := S256x16) _ hz, View.readCov_unit_zero (S := S256x1024) _ hz]
  simp only [View.readAt_eq_ld, harg2.read_unread, harg3.read_unread, harg4.read_unread, harg5.read_unread,
    harg7.read_unread, harg8.read_unread, View.ld_unit_zero (S := S1024x1024) hz, View.ld_unit_zero (S := S256x1024) hz,
    View.ld_unit_zero (S := S256x16) hz, View.ld_unit_zero (S := S1024x16) hz]
  rfl

end Cert.KernelIdeal.Pieces
-- ==== Proof.Chain.lean ====
/-
  What the two accumulators hold after each grid point, and what the last point of a row of the grid stores.

  Grid point t = 8·j + k. Walking k = 0 … 7 with j fixed, the main accumulator's entry (p, q) after point t is the
  sum over s ≤ k of the partial products  Σ_d x (p, 1024s + d) · W (1024j + q, 1024s + d),  and the low-rank
  accumulator's entry (p, r) is the sum over s ≤ k of  Σ_d x (p, 1024s + d) · B (r, 1024s + d): the reset at k = 0
  starts each sum at zero, and every later point adds its own term to what the point before left. At k = 7 the body
  stores the main accumulator plus one times the product of the low-rank accumulator with the A block.
-/
import proofs.«154989_j66494683676793_2_alg».proof.Proof.BlockReads
import proofs.«154989_j66494683676793_2_alg».proof.Proof.Payload
import proofs.«154989_j66494683676793_2_alg».proof.Proof.PiecesA
import proofs.«154989_j66494683676793_2_alg».proof.Proof.PiecesB
import proofs.«154989_j66494683676793_2_alg».proof.Proof.PiecesC

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Chain
open Cert.KernelIdeal Cert.KernelIdeal.Gen Cert.KernelIdeal.Pieces Cert.KernelIdeal.Payload Cert.KernelIdeal.Reads
open Cert.LoraEntries

variable (m : (ℓ : Loc nD τ sig) → Buf (Elt Ideal) ℓ)

/-- Block s of the contracted axis of the product x · Wᵀ at (row, col). -/
def S (c : Dev nD) (row col s : ℕ) : EReal :=
  ∑ d : Fin 1024, at2 (Xv m c) row (1024 * s + d.val) * at2 (Wv m c) col (1024 * s + d.val)

/-- Block s of the contracted axis of the product x · Bᵀ at (row, r). -/
def T (c : Dev nD) (row r s : ℕ) : EReal :=
  ∑ d : Fin 1024, at2 (Xv m c) row (1024 * s + d.val) * at2 (Bv m c) r (1024 * s + d.val)

/-- The main step at point t adds block k of the contracted axis. -/
theorem main_step (c : Dev nD) (t : Fin cfg0.N) (acc : Vec Ideal S256x1024 .f32) (p : Fin 256) (q : Fin 1024) :
    k0_pay4 (F := Ideal) (xcol (grid0.coords t) (iblk m c 0 t)) (iblk m c 1 t) acc (ix2 p q)
      = acc (ix2 p q) + S m c p.val (1024 * (t.val / 8) + q.val) (t.val % 8) := by
  refine (step_main _ _ acc p q).trans ?_
  refine congrArg (acc (ix2 p q) + ·) (Finset.sum_congr rfl fun d _ => ?_)
  rw [xcol_apply, wblk]

/-- The low-rank step at point t adds block k of the contracted axis. -/
theorem lowrank_step (c : Dev nD) (t : Fin cfg0.N) (xb : Vec Ideal S256x16 .f32) (p : Fin 256) (r : Fin 16) :
    k0_pay5 (F := Ideal) (xcol (grid0.coords t) (iblk m c 0 t)) (bcol (grid0.coords t) (iblk m c 3 t)) xb (ix2 p r)
      = xb (ix2 p r) + T m c p.val r.val (t.val % 8) := by
  refine (step_lowrank _ _ xb p r).trans ?_
  refine congrArg (xb (ix2 p r) + ·) (Finset.sum_congr rfl fun d _ => ?_)
  rw [xcol_apply, bcol_apply]

/-- At the first point of a row of the grid both accumulators are the step applied to the zero block. -/
theorem scr_first (c : Dev nD) (t : Fin cfg0.N) (h0 : t.val % 8 = 0) :
    (outsAt0 m c t.val t.isLt).2.1 = k0_pay4 (F := Ideal) (xcol (grid0.coords t) (iblk m c 0 t)) (iblk m c 1 t) (k0_pay1 (F := Ideal))
    ∧ (outsAt0 m c t.val t.isLt).2.2 = k0_pay5 (F := Ideal) (xcol (grid0.coords t) (iblk m c 0 t)) (bcol (grid0.coords t) (iblk m c 3 t)) (k0_pay2 (F := Ideal)) := by
  have h1 : ¬t.val % 8 = 7 := by omega
  rw [outsAt0_A m c t h0 h1]
  dsimp only
  refine ⟨?_, ?_⟩
  · exact accA (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t)
  · exact xbA (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t)

/-- At every other point both accumulators are the step applied to what the point before left. -/
theorem scr_step (c : Dev nD) (t : Fin cfg0.N) (h0 : ¬t.val % 8 = 0) :
    (outsAt0 m c t.val t.isLt).2.1 = k0_pay4 (F := Ideal) (xcol (grid0.coords t) (iblk m c 0 t)) (iblk m c 1 t) (outsAt0 m c (t.val - 1) (Nat.lt_of_le_of_lt (Nat.sub_le _ _) t.isLt)).2.1
    ∧ (outsAt0 m c t.val t.isLt).2.2 = k0_pay5 (F := Ideal) (xcol (grid0.coords t) (iblk m c 0 t)) (bcol (grid0.coords t) (iblk m c 3 t)) (outsAt0 m c (t.val - 1) (Nat.lt_of_le_of_lt (Nat.sub_le _ _) t.isLt)).2.2 := by
  by_cases h1 : t.val % 8 = 7
  · rw [outsAt0_C m c t h0 h1]
    dsimp only
    refine ⟨?_, ?_⟩
    · exact accC (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2
    · exact xbC (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2
  · rw [outsAt0_B m c t h0 h1]
    dsimp only
    refine ⟨?_, ?_⟩
    · exact accB (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2
    · exact xbB (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2

/-- At the last point of a row the output block is built from the accumulators as this point leaves them. -/
theorem out_last (c : Dev nD) (t : Fin cfg0.N) (h1 : t.val % 8 = 7) :
    (outsAt0 m c t.val t.isLt).1
      = k0_pay6 (F := Ideal) (iblk m c 2 t) (outsAt0 m c t.val t.isLt).2.2 (outsAt0 m c t.val t.isLt).2.1 := by
  have h0 : ¬t.val % 8 = 0 := by omega
  rw [outsAt0_C m c t h0 h1]
  dsimp only
  rw [outC c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2,
    accC c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2,
    xbC c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2]

/-- After point n = 8j + k each accumulator's entry is the sum of the blocks 0 … k of its product. -/
theorem scratch_sum (c : Dev nD) : ∀ (n : ℕ) (h : n < cfg0.N),
    (∀ (p : Fin 256) (q : Fin 1024), (outsAt0 m c n h).2.1 (ix2 p q)
        = ∑ s ∈ Finset.range (n % 8 + 1), S m c p.val (1024 * (n / 8) + q.val) s)
    ∧ (∀ (p : Fin 256) (r : Fin 16), (outsAt0 m c n h).2.2 (ix2 p r)
        = ∑ s ∈ Finset.range (n % 8 + 1), T m c p.val r.val s)
  | 0, h => by
    obtain ⟨e0, e1⟩ := scr_first m c ⟨0, h⟩ rfl
    refine ⟨fun p q => ?_, fun p r => ?_⟩
    · rw [show (outsAt0 m c 0 h).2.1 = _ from e0, main_step, zero_main, zero_add]
      exact (Finset.sum_range_one _).symm
    · rw [show (outsAt0 m c 0 h).2.2 = _ from e1, lowrank_step, zero_lowrank, zero_add]
      exact (Finset.sum_range_one _).symm
  | n + 1, h => by
    obtain ⟨ih0, ih1⟩ := scratch_sum c n (Nat.lt_of_succ_lt h)
    by_cases h0 : (n + 1) % 8 = 0
    · obtain ⟨e0, e1⟩ := scr_first m c ⟨n + 1, h⟩ h0
      refine ⟨fun p q => ?_, fun p r => ?_⟩
      · rw [show (outsAt0 m c (n + 1) h).2.1 = _ from e0, main_step, zero_main, zero_add]
        show S m c p.val (1024 * ((n + 1) / 8) + q.val) ((n + 1) % 8) = _
        rw [h0, Finset.sum_range_one]
      · rw [show (outsAt0 m c (n + 1) h).2.2 = _ from e1, lowrank_step, zero_lowrank, zero_add]
        show T m c p.val r.val ((n + 1) % 8) = _
        rw [h0, Finset.sum_range_one]
    · obtain ⟨e0, e1⟩ := scr_step m c ⟨n + 1, h⟩ h0
      have hd : (n + 1) / 8 = n / 8 := by omega
      have hm : (n + 1) % 8 = n % 8 + 1 := by omega
      refine ⟨fun p q => ?_, fun p r => ?_⟩
      · rw [show (outsAt0 m c (n + 1) h).2.1 = _ from e0, main_step]
        show (outsAt0 m c n _).2.1 (ix2 p q) + S m c p.val (1024 * ((n + 1) / 8) + q.val) ((n + 1) % 8) = _
        rw [ih0 p q, hd, hm, Finset.sum_range_succ _ (n % 8 + 1)]
      · rw [show (outsAt0 m c (n + 1) h).2.2 = _ from e1, lowrank_step]
        show (outsAt0 m c n _).2.2 (ix2 p r) + T m c p.val r.val ((n + 1) % 8) = _
        rw [ih1 p r, hm, Finset.sum_range_succ _ (n % 8 + 1)]

/-- One entry of the result over the arrays the region finds, by natural-number coordinates: the whole product
    x · Wᵀ read in eight blocks, plus one times the low-rank product (x · Bᵀ in eight blocks) · Aᵀ. -/
def OUT (c : Dev nD) (row col : ℕ) : EReal :=
  (∑ s ∈ Finset.range 8, S m c row col s)
    + Ideal.ofBits .f32 0x3F800000#32 * ∑ r : Fin 16, (∑ s ∈ Finset.range 8, T m c row r.val s) * at2 (Av m c) col r.val

/-- What the last point of row j of the grid stores at (p, q) is the result's entry (p, 1024j + q). -/
theorem out_entry (c : Dev nD) (t : Fin cfg0.N) (h1 : t.val % 8 = 7) (p : Fin 256) (q : Fin 1024) :
    (outsAt0 m c t.val t.isLt).1 (ix2 p q) = OUT m c p.val (1024 * (t.val / 8) + q.val) := by
  obtain ⟨a0, a1⟩ := scratch_sum m c t.val t.isLt
  have h8 : t.val % 8 + 1 = 8 := by omega
  rw [h8] at a0 a1
  rw [out_last m c t h1, step_out, a0 p q]
  unfold OUT
  refine congrArg (fun z => _ + _ * z) (Finset.sum_congr rfl fun r _ => ?_)
  rw [a1 p r, ablk]

end Cert.KernelIdeal.Chain
-- ==== Proof.Blocks.lean ====
/-
  From the blocks the pipeline writes back to the whole 256 × 8192 result array.

  The output window's block at grid point t = 8j + 7 is all 256 rows of columns [1024j, 1024j + 1024); it is written
  back at those eight points and nowhere else, and what is written back is the block of ONE array, the function OUT of
  the natural-number coordinates. The eight column blocks cover the array, so after the run the array is that function.
-/
import proofs.«154989_j66494683676793_2_alg».proof.Proof.Chain

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Blocks
open Cert.KernelIdeal Cert.KernelIdeal.Gen Cert.KernelIdeal.Reads Cert.KernelIdeal.Chain
open Cert.LoraEntries

variable (m : (ℓ : Loc nD τ sig) → Buf (Elt Ideal) ℓ)

/-- The result array: entry (row, col) is OUT row col. -/
def G2 (c : Dev nD) : S256x8192.Idx → EReal := fun i => OUT m c (i 0).val (i 1).val

theorem G2_apply (c : Dev nD) (i : S256x8192.Idx) (a b : ℕ) (ha : (i 0).val = a) (hb : (i 1).val = b) :
    G2 m c i = OUT m c a b := by
  subst ha hb; rfl

/-- What point t = 8j + 7 writes back is its block of the result array. -/
theorem flushed_eq (c : Dev nD) (t : Fin cfg0.N) (hf : (cfg0.win 4).flush t = true) :
    (dats m 0 c).flushed 4 t = ((cfg0.win 4).blk t).view.read (Elt Ideal) (G2 m c) := by
  have h7 : t.val % 8 = 7 := (flush0_4 t).mp hf
  obtain ⟨-, -, -, -, -, -, -, -, h40, h41, -⟩ := idx_facts t
  show (cfg0.win 4).cut (grid0.coords t) ((dats m 0 c).after 4 t) = _
  rw [after0_4]
  funext y
  rw [View.read_apply]
  have hy0 : (y 0).val < 256 := (y 0).isLt
  have hy1 : (y 1).val < 1024 := (y 1).isLt
  have e : win0_4.xinj (grid0.coords t) y = ix2 (⟨(y 0).val, hy0⟩ : Fin 256) (⟨(y 1).val, hy1⟩ : Fin 1024) :=
    funext fun a => Fin.ext (by match a with | ⟨0, _⟩ => rfl | ⟨1, _⟩ => rfl)
  show (outsAt0 m c t.val t.isLt).1 (win0_4.xinj (grid0.coords t) y) = G2 m c _
  rw [e, out_entry m c t h7]
  refine (G2_apply m c _ _ _ ?_ ?_).symm
  · show win0_4.index t 0 * 256 + 1 * (y 0).val = (y 0).val; rw [h40]; omega
  · show win0_4.index t 1 * 1024 + 1 * (y 1).val = 1024 * (t.val / 8) + (y 1).val; rw [h41]; omega

/-- Every entry of the array lies in the block of the point 8·(col / 1024) + 7. -/
theorem cover (c : Dev nD) (i : S256x8192.Idx) :
    ∃ t : Fin cfg0.N, (cfg0.win 4).flush t = true ∧ i ∈ ((cfg0.win 4).blk t).view.set := by
  have hi0 : (i 0).val < 256 := (i 0).isLt
  have hi1 : (i 1).val < 8192 := (i 1).isLt
  have hN : cfg0.N = 64 := N_0
  obtain ⟨t, ht⟩ : ∃ t : Fin cfg0.N, t.val = 8 * ((i 1).val / 1024) + 7 := ⟨⟨8 * ((i 1).val / 1024) + 7, by rw [hN]; omega⟩, rfl⟩
  obtain ⟨-, -, -, -, -, -, -, -, h40, h41, -⟩ := idx_facts t
  refine ⟨t, (flush0_4 t).mpr (by rw [ht]; omega), ?_⟩
  show i ∈ ((View.whole main_v1).slice (win0_4.rect t)).set
  rw [View.set_slice_whole, Rect.mem_set_unit]
  intro a
  match a with
  | ⟨0, _⟩ =>
    show win0_4.index t 0 * 256 ≤ (i 0).val ∧ (i 0).val < win0_4.index t 0 * 256 + 256
    rw [h40]; omega
  | ⟨1, _⟩ =>
    show win0_4.index t 1 * 1024 ≤ (i 1).val ∧ (i 1).val < win0_4.index t 1 * 1024 + 1024
    rw [h41, ht]; omega

/-- After the run the result array is OUT at every entry. -/
theorem final (c : Dev nD) : (dats m 0 c).arrAt 4 cfg0.N = G2 m c :=
  (dats m 0 c).arrAt_eq_of_cover 4 (G2 m c) (flushed_eq m c) (cover c)

end Cert.KernelIdeal.Blocks
-- ==== Proof.Tail.lean ====
/-
  The whole program's run, read: after the region the result array is re-laid from 256 × 8192 to 4 × 64 × 8192, so the
  program's result is that re-laying of the function OUT; before the region x is re-laid from 4 × 64 × 8192 to
  256 × 8192, which is the array the region finds; the four arguments end as they began.
-/
import proofs.«154989_j66494683676793_2_alg».proof.Proof.Blocks
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Tail
open Cert.KernelIdeal Cert.KernelIdeal.Gen Cert.KernelIdeal.Reads Cert.KernelIdeal.Chain Cert.KernelIdeal.Blocks
open Cert.LoraEntries

variable (m : (ℓ : Loc nD τ sig) → Buf (Elt Ideal) ℓ) (ρ : Dev nD → PrngReg)

/-- The program's result: the result array re-laid as 4 × 64 × 8192. -/
def Kres (c : Dev nD) : S4x64x8192.Idx → EReal :=
  shapeCast S4x64x8192 (G2 m c) Cert.KernelIdeal.Facts₀.shapeCasts_S256x8192_S4x64x8192

/-- The array the region finds for x is the argument re-laid as 256 × 8192. -/
theorem Xv_eq (c : Dev nD) :
    Xv m c = shapeCast S256x8192 (m ((c : Thread nD τ).loc main_arg0)) Cert.KernelIdeal.Facts₀.shapeCasts_S4x64x8192_S256x8192 := by
  show StableHlo.after hostOps0 (fun b => m (c, b)) (Proc.devRef .tc main_v0) = _
  after_results
  rfl

/-- The host line after the region re-lays the result array. -/
theorem tail_eq (c : Dev nD) :
    Pipeline.afterTail₀ cfgs (dats m) 0 (V0 m) [hostOps1] c main_v2 = Kres m c := by
  unfold Pipeline.afterTail₀
  show StableHlo.after hostOps1 _ (Proc.devRef .tc main_v2) = _
  after_results
  have hw : Pipeline.withArrays (cfgs 0).spec c (V0 m c) (fun w => (dats m 0 c).arrAt w (cfgs 0).N)
      (Proc.devRef .tc main_v1) = G2 m c :=
    (Pipeline.withArrays_arr spec0 launch0.win.arr_inj c _ _ 4).trans (final m c)
  rw [hw]
  rfl

/-- The run, read: the result at the re-laid OUT, the four arguments unchanged. -/
theorem run : θ_run defs (onTc (τ := τ) (main (F := Ideal))) ⟨m, fun _ => 0, ρ⟩ (fun r => ∀ c : Dev nD,
      r.2.mem ((c.tc : Thread nD τ).loc main_v2) = Kres m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v2 (Pipeline.mem_restRefs_of main_v2 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.KernelIdeal.Tail
-- ==== Proof.Reference.lean ====
/-
  The reference's result read at one entry (b, s, o), over the extended reals, by natural-number coordinates:
    the sum over D < 8192 of  x (b, s, D) · ( W (o, D) + one · ( one · the sum over r < 16 of A (o, r) · B (r, D) ) ).
  The x array enters through its re-laying as 256 rows (row 64·b + s), which is how the kernel reads it.
-/
import proofs.«154989_j66494683676793_2_alg».proof.Proof.Gen.ReferenceIdeal.Read
import proofs.«154989_j66494683676793_2_alg».proof.Proof.Entries

noncomputable section

open Idealize.ShloMosaic Idealize.ShloMosaic.TcCoe Idealize.SL.Sem Idealize.ShloMosaic.ValueIdx

namespace Cert.ReferenceIdeal.RefValue
open Cert.ReferenceIdeal Cert.ReferenceIdeal.Read Cert.LoraEntries

/-- The reference's entry at (row, col) over 256-row x. -/
def REF (X : (⟨2, ![256, 8192]⟩ : Shape).Idx → EReal) (W : S8192x8192.Idx → EReal) (A : S8192x16.Idx → EReal)
    (B : S16x8192.Idx → EReal) (row col : ℕ) : EReal :=
  ∑ k : Fin 8192, at2 X row k.val
    * (at2 W col k.val + Ideal.ofBits .f32 0x3F800000#32
        * (Ideal.ofBits .f32 0x3F800000#32 * ∑ r : Fin 16, at2 A col r.val * at2 B r.val k.val))

/-- The reference's result at index i is REF at (64·i₀ + i₁, i₂), for any 256-row matrix X whose row 64·i₀ + i₁ is
    x's row (i₀, i₁). -/
theorem ref_entry (x0 : S4x64x8192.Idx → EReal) (x1 : S8192x8192.Idx → EReal) (x2 : S8192x16.Idx → EReal)
    (x3 : S16x8192.Idx → EReal) (i : S4x64x8192.Idx) (X : (⟨2, ![256, 8192]⟩ : Shape).Idx → EReal)
    (hX : ∀ k : Fin 8192, x0 (lidx_main_v6 i k) = at2 X (64 * (i 0).val + (i 1).val) k.val) :
    val_main_v6 (F := Ideal) x0 x1 x2 x3 i = REF X x1 x2 x3 (64 * (i 0).val + (i 1).val) (i 2).val := by
  rw [val_main_v6_apply]
  unfold REF
  refine Finset.sum_congr rfl fun k _ => ?_
  rw [hX k, val_main_v5_apply, val_main_v4_apply, val_main_v3_apply, val_main_cst_0_apply, val_main_v2_apply,
    val_main_v1_apply, val_main_cst_apply, val_main_v0_apply]
  simp only [Ideal.mulf_def, Ideal.addf_def, Ideal.ofBits_def]
  rw [at2_of_val x1 (ridx_main_v6 i k) (i 2).val k.val rfl rfl]
  refine congrArg (fun z => _ * (_ + _ * (_ * z))) (Finset.sum_congr rfl fun r _ => ?_)
  rw [at2_of_val x2 (lidx_main_v0 (ridx_main_v6 i k) r) (i 2).val r.val rfl rfl,
    at2_of_val x3 (ridx_main_v0 (ridx_main_v6 i k) r) r.val k.val rfl rfl]

end Cert.ReferenceIdeal.RefValue
-- ==== Proof.Finite.lean ====
/-
  The precondition says: for each of the four arrays, every entry's absolute value is below +∞. Over the extended
  reals that is: every entry is neither +∞ nor -∞, that is, a real number.
-/
import proofs.«154989_j66494683676793_2_alg».proof.Pre_finite_inputs
import proofs.«154989_j66494683676793_2_alg».proof.Proof.Gen.Pre_finite_inputs
import Idealize.ShloMosaic.Lib.ReduceAll
import Idealize.ShloMosaic.Lib.Affine
import Idealize.ShloMosaic.Lib.ValueIdx
import Idealize.ShloMosaic.PureOps.Ideal

noncomputable section

open Idealize.ShloMosaic Idealize.ShloMosaic.ValueIdx

namespace Cert.Pre_finite_inputs.Finite
open Cert.Pre_finite_inputs Cert.Pre_finite_inputs.Gen

instance : Subsingleton S_.Idx := ⟨fun a b => funext fun d => d.elim0⟩

/-- The word 0x7F800000 is +∞. -/
theorem inf_word : Ideal.ofBits .f32 0x7F800000#32 = (⊤ : EReal) := by
  simp [Ideal.ofBits, Ideal.ieee]

/-- An extended real whose absolute value compares below +∞ is a real number. -/
theorem finite_of_lt (x : EReal)
    (h : Ideal.cmp .olt (max x (-x)) (Ideal.ofBits .f32 0x7F800000#32) = 1#1) : x ≠ ⊤ ∧ x ≠ ⊥ := by
  rw [inf_word] at h
  have hlt : max x (-x) < ⊤ := by
    unfold Ideal.cmp at h
    by_contra hn
    simp [hn] at h
  constructor
  · rintro rfl; simp at hlt
  · rintro rfl; simp at hlt

/-- The precondition gives every entry of every array finite. -/
theorem of_pre (x0 : FVec Ideal S4x64x8192 .f32) (x1 : FVec Ideal S8192x8192 .f32) (x2 : FVec Ideal S8192x16 .f32)
    (x3 : FVec Ideal S16x8192 .f32) (h : fn (F := Ideal) x0 x1 x2 x3 = fun _ => 1#1) :
    (∀ i, x0 i ≠ ⊤ ∧ x0 i ≠ ⊥) ∧ (∀ i, x1 i ≠ ⊤ ∧ x1 i ≠ ⊥) ∧ (∀ i, x2 i ≠ ⊤ ∧ x2 i ≠ ⊥) ∧ (∀ i, x3 i ≠ ⊤ ∧ x3 i ≠ ⊥) := by
  have h' := congrFun h ix0
  dsimp only [fn, fn_part1] at h'
  obtain ⟨h012, h3⟩ := IntOp.andi_eq_one.mp h'
  obtain ⟨h01, h2⟩ := IntOp.andi_eq_one.mp h012
  obtain ⟨h0, h1⟩ := IntOp.andi_eq_one.mp h01
  refine ⟨fun i => finite_of_lt _ (Host.reduce_andi_all _ _ _ _ _ h0 i), fun i => finite_of_lt _ (Host.reduce_andi_all _ _ _ _ _ h1 i),
    fun i => finite_of_lt _ (Host.reduce_andi_all _ _ _ _ _ h2 i), fun i => finite_of_lt _ (Host.reduce_andi_all _ _ _ _ _ h3 i)⟩

end Cert.Pre_finite_inputs.Finite
-- ==== Proof.Law.lean ====
/-
  The algebra that joins the two programs, stated once over plain index types.

  The kernel computes, for one output entry, the sum over the contracted axis of x·w, plus one times the sum over the
  low-rank axis r of (the sum over the contracted axis of x·b r) · a r. The reference computes the sum over the
  contracted axis of x · (w + one · (one · the sum over r of a r · b r)). Over the reals these agree by distributivity
  and an exchange of the two sums; over the extended reals distributivity needs finite entries, so the law is stated
  for entries that are coercions of reals. The kernel walks the contracted axis in blocks of equal length, which is
  the same sum read block by block.
-/
import Mathlib

open Finset

namespace Cert.LoraLaw

/-- The coercion of the reals into the extended reals commutes with a finite sum. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum over an axis of length L·K is the sum over its K blocks of the sums inside each block of length L. -/
theorem sum_blocks {M : Type*} [AddCommMonoid M] (g : ℕ → M) (L : ℕ) : ∀ K : ℕ,
    ∑ s ∈ range K, ∑ d : Fin L, g (L * s + d.val) = ∑ D ∈ range (L * K), g D
  | 0 => by simp
  | K + 1 => by
    rw [Finset.sum_range_succ, sum_blocks g L K, Nat.mul_succ, Finset.sum_range_add]
    exact congrArg _ (Finset.sum_range fun d => g (L * K + d)).symm

/-- The law over the reals: distributivity, then the two sums exchanged. -/
theorem real_law (N : ℕ) {R : Type*} [Fintype R] (x w : ℕ → ℝ) (b : R → ℕ → ℝ) (a : R → ℝ) :
    (∑ D ∈ range N, x D * w D) + 1 * ∑ r, (∑ D ∈ range N, x D * b r D) * a r
      = ∑ D ∈ range N, x D * (w D + 1 * (1 * ∑ r, a r * b r D)) := by
  simp only [one_mul, mul_add, Finset.sum_add_distrib, Finset.mul_sum, Finset.sum_mul]
  congr 1
  rw [Finset.sum_comm]
  exact Finset.sum_congr rfl fun D _ => Finset.sum_congr rfl fun r _ => by ring

/-- The same law over the extended reals, for finite entries. -/
theorem ereal_law (N : ℕ) {R : Type*} [Fintype R] (x w : ℕ → ℝ) (b : R → ℕ → ℝ) (a : R → ℝ) :
    (∑ D ∈ range N, (x D : EReal) * (w D : EReal))
        + ((1 : ℝ) : EReal) * ∑ r, (∑ D ∈ range N, (x D : EReal) * (b r D : EReal)) * (a r : EReal)
      = ∑ D ∈ range N, (x D : EReal)
          * ((w D : EReal) + ((1 : ℝ) : EReal) * (((1 : ℝ) : EReal) * ∑ r, (a r : EReal) * (b r D : EReal))) := by
  simp only [← EReal.coe_mul, ← coe_sum, ← EReal.coe_add]
  exact congrArg _ (real_law N x w b a)

/-- The law for extended-real entries each of which is a real number. -/
theorem ereal_law_fin (N : ℕ) {R : Type*} [Fintype R] (x w : ℕ → EReal) (b : R → ℕ → EReal) (a : R → EReal)
    (hx : ∀ D, ((x D).toReal : EReal) = x D) (hw : ∀ D, ((w D).toReal : EReal) = w D)
    (hb : ∀ r D, ((b r D).toReal : EReal) = b r D) (ha : ∀ r, ((a r).toReal : EReal) = a r) :
    (∑ D ∈ range N, x D * w D) + ((1 : ℝ) : EReal) * ∑ r, (∑ D ∈ range N, x D * b r D) * a r
      = ∑ D ∈ range N, x D * (w D + ((1 : ℝ) : EReal) * (((1 : ℝ) : EReal) * ∑ r, a r * b r D)) := by
  have h := ereal_law N (fun D => (x D).toReal) (fun D => (w D).toReal) (fun r D => (b r D).toReal) (fun r => (a r).toReal)
  simp only [hx, hw, hb, ha] at h
  exact h

end Cert.LoraLaw
-- ==== Proof.Consts.lean ====
/-
  The one float literal both programs carry: the word 0x3F800000 is the real number one.
-/
import Idealize.ShloMosaic.PureOps.Ideal

noncomputable section

open Idealize.ShloMosaic

namespace Cert.LoraConsts

theorem one_word : Ideal.ofBits .f32 0x3F800000#32 = ((1 : ℝ) : EReal) := by
  simp [Ideal.ofBits, Ideal.ieee, -EReal.coe_mul]
  norm_num

end Cert.LoraConsts
-- ==== Proof.Bridge.lean ====
/-
  The two programs compute one function of finite inputs.

  The kernel's result at (b, s, o) is OUT at row 64·b + s, column o: the product x · Wᵀ summed block by block along
  the contracted axis, plus one times ((x · Bᵀ) summed block by block) · Aᵀ. The reference's is the sum over the
  contracted axis of x · (W + one · (one · (A · B))). The blocks are the whole axis, the word one is the real number
  one, and for entries that are real numbers the two sides agree by distributivity and an exchange of the two sums.
-/
import proofs.«154989_j66494683676793_2_alg».proof.Proof.Tail
import proofs.«154989_j66494683676793_2_alg».proof.Proof.Reference
import proofs.«154989_j66494683676793_2_alg».proof.Proof.Finite
import proofs.«154989_j66494683676793_2_alg».proof.Proof.Law
import proofs.«154989_j66494683676793_2_alg».proof.Proof.Consts

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Bridge
open Cert.KernelIdeal Cert.KernelIdeal.Gen Cert.KernelIdeal.Reads Cert.KernelIdeal.Chain Cert.KernelIdeal.Blocks
open Cert.KernelIdeal.Tail Cert.LoraEntries Cert.LoraLaw Cert.LoraConsts
open Cert.ReferenceIdeal.RefValue (REF ref_entry)

variable (m : (ℓ : Loc nD τ sig) → Buf (Elt Ideal) ℓ)

/-- For finite arrays the kernel's entry is the reference's entry. -/
theorem out_eq_ref (c : Dev nD) (hX : Finite2 (Xv m c)) (hW : Finite2 (Wv m c)) (hA : Finite2 (Av m c))
    (hB : Finite2 (Bv m c)) (row col : ℕ) :
    OUT m c row col = REF (Xv m c) (Wv m c) (Av m c) (Bv m c) row col := by
  have e1 : ∑ s ∈ Finset.range 8, S m c row col s
      = ∑ D ∈ Finset.range 8192, at2 (Xv m c) row D * at2 (Wv m c) col D :=
    sum_blocks (fun D => at2 (Xv m c) row D * at2 (Wv m c) col D) 1024 8
  have e2 : ∀ r : Fin 16, ∑ s ∈ Finset.range 8, T m c row r.val s
      = ∑ D ∈ Finset.range 8192, at2 (Xv m c) row D * at2 (Bv m c) r.val D :=
    fun r => sum_blocks (fun D => at2 (Xv m c) row D * at2 (Bv m c) r.val D) 1024 8
  unfold OUT REF
  rw [e1, one_word]
  simp only [e2]
  exact (ereal_law_fin 8192 (fun D => at2 (Xv m c) row D) (fun D => at2 (Wv m c) col D)
    (fun (r : Fin 16) D => at2 (Bv m c) r.val D) (fun (r : Fin 16) => at2 (Av m c) col r.val)
    (fun D => (at2_coe _ hX _ _).symm) (fun D => (at2_coe _ hW _ _).symm)
    (fun r D => (at2_coe _ hB _ _).symm) (fun r => (at2_coe _ hA _ _).symm)).trans
    (Finset.sum_range (fun D => at2 (Xv m c) row D * (at2 (Wv m c) col D
      + ((1 : ℝ) : EReal) * (((1 : ℝ) : EReal) * ∑ r : Fin 16, at2 (Av m c) col r.val * at2 (Bv m c) r.val D))))

/-- Under the precondition the kernel's result is the reference's result of the same arguments. -/
theorem kres_eq (c : Dev nD)
    (hpre : Cert.Pre_finite_inputs.fn (F := Ideal) (m ((c.tc : Thread nD τ).loc main_arg0)) (m ((c.tc : Thread nD τ).loc main_arg1))
      (m ((c.tc : Thread nD τ).loc main_arg2)) (m ((c.tc : Thread nD τ).loc main_arg3)) = fun _ => 1#1) :
    Kres m c = Cert.ReferenceIdeal.Read.val_main_v6 (F := Ideal) (m ((c.tc : Thread nD τ).loc main_arg0))
      (m ((c.tc : Thread nD τ).loc main_arg1)) (m ((c.tc : Thread nD τ).loc main_arg2)) (m ((c.tc : Thread nD τ).loc main_arg3)) := by
  obtain ⟨f0, f1, f2, f3⟩ := Cert.Pre_finite_inputs.Finite.of_pre _ _ _ _ hpre
  have hW : Wv m c = m ((c.tc : Thread nD τ).loc main_arg1) := V_main_arg1 m c
  have hA : Av m c = m ((c.tc : Thread nD τ).loc main_arg2) := V_main_arg2 m c
  have hB : Bv m c = m ((c.tc : Thread nD τ).loc main_arg3) := V_main_arg3 m c
  have fX : Finite2 (Xv m c) := by
    intro j; rw [Xv_eq]; unfold shapeCast; exact f0 _
  have fW : Finite2 (Wv m c) := by rw [hW]; exact f1
  have fA : Finite2 (Av m c) := by rw [hA]; exact f2
  have fB : Finite2 (Bv m c) := by rw [hB]; exact f3
  funext i
  have hi0 : (i 0).val < 4 := (i 0).isLt
  have hi1 : (i 1).val < 64 := (i 1).isLt
  have hi2 : (i 2).val < 8192 := (i 2).isLt
  have hrow : 64 * (i 0).val + (i 1).val < 256 := by omega
  have hL : Kres m c i = OUT m c (64 * (i 0).val + (i 1).val) (i 2).val := by
    unfold Kres
    refine (shapeCast_apply (G2 m c) _ i (ix2 (⟨64 * (i 0).val + (i 1).val, hrow⟩ : Fin 256) (⟨(i 2).val, hi2⟩ : Fin 8192)) ?_).trans
      (G2_apply m c _ _ _ rfl rfl)
    rw [Shape.rowMajor_val_two, Shape.rowMajor_val_three]
    show (64 * (i 0).val + (i 1).val) * 8192 + (i 2).val = ((i 0).val * 64 + (i 1).val) * 8192 + (i 2).val
    omega
  have hXrow : ∀ k : Fin 8192, (m ((c.tc : Thread nD τ).loc main_arg0) : S4x64x8192.Idx → EReal) (Cert.ReferenceIdeal.Read.lidx_main_v6 i k)
      = at2 (Xv m c) (64 * (i 0).val + (i 1).val) k.val := by
    intro k
    unfold at2
    rw [dif_pos ⟨hrow, k.isLt⟩, Xv_eq]
    refine (shapeCast_apply _ _ (ix2 (⟨64 * (i 0).val + (i 1).val, hrow⟩ : Fin 256) (⟨k.val, k.isLt⟩ : Fin 8192))
      (Cert.ReferenceIdeal.Read.lidx_main_v6 i k) ?_).symm
    rw [Shape.rowMajor_val_two, Shape.rowMajor_val_three]
    show ((i 0).val * 64 + (i 1).val) * 8192 + k.val = (64 * (i 0).val + (i 1).val) * 8192 + k.val
    omega
  rw [hL, out_eq_ref m c fX fW fA fB, hW, hA, hB]
  exact (ref_entry _ _ _ _ i (Xv m c) hXrow).symm

end Cert.KernelIdeal.Bridge
-- ==== Proof.lean ====
/-
  The certificate of a low-rank-adapted linear layer: out = x · (W + (A · B))ᵀ, computed by the kernel as
  x · Wᵀ + one · ((x · Bᵀ) · Aᵀ) with the contracted axis walked in eight blocks, against the reference's
  x · (W + one · (one · (A · B)))ᵀ.

  The three frames: the two kernel programs' are the generated frame proofs; the reference's is its generated run
  with the result dropped. The idealized kernel is the kernel's own text read over the extended reals (no rewrite),
  so the preservation claim is trivial. The algebraic claim: the kernel's run ends with its result at a function of
  the arguments (the accumulators' sums block by block, then the blocks to the array, then the re-laying), the
  reference's at its composed term; under the precondition every entry is a real number, and for real entries the
  two are equal by distributivity and an exchange of the two sums.
-/
import proofs.«154989_j66494683676793_2_alg».proof.Defs
import proofs.«154989_j66494683676793_2_alg».proof.Proof.Gen.Kernel
import proofs.«154989_j66494683676793_2_alg».proof.Proof.Gen.Kernel.Skeleton
import proofs.«154989_j66494683676793_2_alg».proof.Proof.Gen.Kernel.Launch
import proofs.«154989_j66494683676793_2_alg».proof.Proof.Gen.Kernel.Points
import proofs.«154989_j66494683676793_2_alg».proof.Proof.Gen.Kernel.Frame
import proofs.«154989_j66494683676793_2_alg».proof.Proof.Gen.KernelIdeal
import proofs.«154989_j66494683676793_2_alg».proof.Proof.Gen.KernelIdeal.Skeleton
import proofs.«154989_j66494683676793_2_alg».proof.Proof.Gen.KernelIdeal.Launch
import proofs.«154989_j66494683676793_2_alg».proof.Proof.Gen.KernelIdeal.Points
import proofs.«154989_j66494683676793_2_alg».proof.Proof.Gen.KernelIdeal.Frame
import proofs.«154989_j66494683676793_2_alg».proof.Proof.Gen.ReferenceIdeal
import proofs.«154989_j66494683676793_2_alg».proof.Proof.Gen.ReferenceIdeal.Run
import proofs.«154989_j66494683676793_2_alg».proof.Proof.Gen.ReferenceIdeal.Read
import proofs.«154989_j66494683676793_2_alg».proof.Proof.Gen.Pre_finite_inputs
import proofs.«154989_j66494683676793_2_alg».proof.Proof.Bridge
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both runs end with the result at the kernel's function of the arguments: the kernel's by its run, the
    reference's because, the arguments agreeing and every entry finite, its composed term is that function. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Tail.Kres m c, Cert.KernelIdeal.Tail.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v6_eq, (hagree c).1, (hagree c).2.1, (hagree c).2.2.1, (hagree c).2.2.2]
  exact (Cert.KernelIdeal.Bridge.kres_eq m c (hpre c)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
